-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 42
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x128, .f32⟩
  | .hbm, ⟨36, _⟩ => ⟨S_, .f32⟩
  | .hbm, ⟨37, _⟩ => ⟨S100000x128, .f32⟩
  | .hbm, ⟨38, _⟩ => ⟨S1700000x1, .i32⟩
  | .hbm, ⟨39, _⟩ => ⟨S100000x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KernelPayloads.lean ====
/-
  What each of the two kernel bodies stores, read at one entry of its 5000 × 128 block, on the extended reals.

  The first body multiplies its block of rows of x by W (the roundings to bf16 on the way in are the identity on
  extended reals; the accumulator starts at zero) and scales row p by the p-th entry of its column of factors:
      entry (p, q)  =  (∑ k < 128, x(p, k) · W(k, q)) · f(p, 0).
  The second scales row p of its block of aggregated rows by the same column, adds the bias row and clamps at zero:
      entry (p, q)  =  max (a(p, q) · f(p, 0) + b(0, q)) 0.
-/
import proofs.«154220_j82824149336364_2_alg».proof.Proof.Gen.KernelIdeal.Skeleton
import proofs.«154220_j82824149336364_2_alg».proof.Proof.LibPlainDot
import proofs.«154220_j82824149336364_2_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-- The product's dimension numbers contract the left operand's columns with the right operand's rows. -/
theorem dot_rank : (dot_S5000x128_S128x128_S5000x128_1_0_0_1_n_n).contr.rank = 1 := rfl
theorem dot_size : (dot_S5000x128_S128x128_S5000x128_1_0_0_1_n_n).contr.size ⟨0, by rw [dot_rank]; omega⟩ = 128 := rfl
theorem dot_l0 : ∀ (j : S5000x128.Idx) (k : (dot_S5000x128_S128x128_S5000x128_1_0_0_1_n_n).contr.Idx),
    ((dot_S5000x128_S128x128_S5000x128_1_0_0_1_n_n).lhsIdx j k 0).val = (j 0).val := fun _ _ => rfl
theorem dot_r1 : ∀ (j : S5000x128.Idx) (k : (dot_S5000x128_S128x128_S5000x128_1_0_0_1_n_n).contr.Idx),
    ((dot_S5000x128_S128x128_S5000x128_1_0_0_1_n_n).rhsIdx j k 1).val = (j 1).val := fun _ _ => rfl

/-- The first body's stored value at entry (p, q). -/
theorem prescale_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply]
  refine congrArg₂ (· * ·) ?_ ?_
  · exact Cert.LibPlainDot.matmul_zero_apply (M := 5000) (K := 128) (N := 128) dot_S5000x128_S128x128_S5000x128_1_0_0_1_n_n
      dot_rank dot_size rfl rfl dot_l0 dot_r1 none _ _ p q
  · rw [Cert.LibUnitAxes.broadcastTo_a1_ab_apply, shapeCast_self]

/-- The second body's stored value at entry (p, q). -/
theorem postscale_apply (x0 : Vec Ideal S5000x128 .f32) (x1 : Vec Ideal S5000x1 .f32) (x2 : Vec Ideal S1x128 .f32)
    (p : Fin 5000) (q : Fin 128) :
    k1_pay1 x0 x1 x2 (ix2 p q) = max (x0 (ix2 p q) * x1 (ix2 p (0 : Fin 1)) + x2 (ix2 (0 : Fin 1) q)) 0 := by
  unfold k1_pay1
  rw [maximumf_apply, addf_apply, mulf_apply, shapeCast_self, Cert.LibUnitAxes.broadcastTo_a1_ab_apply, shapeCast_self,
    broadcastTo_1b_ab_apply, shapeCast_self, broadcast_apply]
  refine congrArg (max _) ?_
  exact Ideal.ofBits_zero_f32

end Cert.KernelIdeal.Payloads

end
-- ==== Proof.KernelRegions.lean ====
/-
  Each of the two grid launches, from blocks to the whole array, at any buffer contents `V` the launch is entered from.

  Both launches walk the 100000 rows in 20 blocks of 5000 rows: at point t the row windows sit at block t and the
  whole-array windows (the weight matrix; the bias row) at block 0.  So row r of an output is written by point r / 5000,
  from row r of the row inputs, and every output array ends as ONE function of the input arrays:
      first launch    (r, q) ↦ (∑ k, x(r, k) · W(k, q)) · f(r, 0)
      second launch   (r, q) ↦ max (a(r, q) · f(r, 0) + b(0, q)) 0.
-/
import proofs.«154220_j82824149336364_2_alg».proof.Proof.Gen.KernelIdeal.Frame
import proofs.«154220_j82824149336364_2_alg».proof.Proof.KernelPayloads

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Rows of x · W, row r scaled by the r-th factor. -/
def scaledRows (x : S100000x128.Idx → EReal) (wt : S128x128.Idx → EReal) (f : S100000x1.Idx → EReal) :
    S100000x128.Idx → EReal :=
  fun i => (∑ k : Fin 128, x (ix2 (i 0) k) * wt (ix2 k (i 1))) * f (ix2 (i 0) (0 : Fin 1))

/-- Aggregated rows, row r scaled by the r-th factor, plus the bias row, clamped at zero. -/
def normalizedOut (a : S100000x128.Idx → EReal) (f : S100000x1.Idx → EReal) (b : S1x128.Idx → EReal) :
    S100000x128.Idx → EReal :=
  fun i => max (a (ix2 (i 0) (i 1)) * f (ix2 (i 0) (0 : Fin 1)) + b (ix2 (0 : Fin 1) (i 1))) 0

theorem hz : (![0, 0] : Fin 2 → Nat) = fun _ => 0 := funext fun a => by fin_cases a <;> rfl

/-- Row p of block t is row 5000 · t + p of the array. -/
def rowAt (tv : Nat) (h : tv < 20) (p : Fin 5000) : Fin 100000 := ⟨tv * 5000 + p.val, by omega⟩

variable (V : (c : Dev nD) → (b : Ref sig .tc) → Buf (Elt Ideal) ((c : Thread nD τ).loc b))

/-! ## The first launch -/

/-- The printed index maps over the grid: the row windows at block t, the weight matrix at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of x at point t, read at (p, k). -/
theorem blk0_x (c : Dev nD) (t : Fin cfg0.N) (p : Fin 5000) (k : Fin 128) :
    iblk0 V c 0 t (ix2 p k) = V c main_arg0 (ix2 (rowAt t.val t.isLt p) k) := by
  obtain ⟨e00, e01, -⟩ := idx0 t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of W at any point is W. -/
theorem blk0_w (c : Dev nD) (t : Fin cfg0.N) (k : Fin 128) (q : Fin 128) :
    iblk0 V c 1 t (ix2 k q) = V c main_arg2 (ix2 k q) := by
  obtain ⟨-, -, e10, e11, -⟩ := idx0 t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The block of the factor column at point t, read at (p, 0). -/
theorem blk0_f (c : Dev nD) (t : Fin cfg0.N) (p : Fin 5000) :
    iblk0 V c 2 t (ix2 p (0 : Fin 1)) = V c main_v15 (ix2 (rowAt t.val t.isLt p) (0 : Fin 1)) := by
  obtain ⟨-, -, -, -, e20, e21, -⟩ := idx0 t
  show V c main_v15 (((cfg0.win 2).blk t).view.emb (ix2 p (0 : Fin 1))) = _
  refine congrArg (V c main_v15) ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- Entry (p, q) of the output's block at point t is entry (5000 · t + p, q) of the array. -/
theorem emb0_out (t : Fin cfg0.N) (p : Fin 5000) (q : Fin 128) :
    ((cfg0.win 3).blk t).view.emb (ix2 p q) = ix2 (rowAt t.val t.isLt p) q := by
  obtain ⟨-, -, -, -, -, -, e30, e31⟩ := idx0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is block t of the scaled rows of the arrays as the launch finds them. -/
theorem flushed0 (c : Dev nD) (t : Fin cfg0.N) :
    (dat0 V c).flushed 3 t
      = ((cfg0.win 3).blk t).view.read (Elt Ideal) (scaledRows (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  refine (Payloads.prescale_apply (iblk0 V c 0 t) (iblk0 V c 1 t) (iblk0 V c 2 t) p q).trans ?_
  show _ = scaledRows (V c main_arg0) (V c main_arg2) (V c main_v15) (((cfg0.win 3).blk t).view.emb (ix2 p q))
  rw [emb0_out t p q, blk0_f V c t p]
  unfold scaledRows
  refine congrArg (· * _) ?_
  refine Finset.sum_congr rfl fun k _ => ?_
  rw [blk0_x V c t p k, blk0_w V c t k q]

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r lies in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨-, -, -, -, -, -, e30, e31⟩ := idx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e31]; omega

/-- THE FIRST LAUNCH'S OUTPUT ARRAY: the scaled rows of the arrays the launch is entered from. -/
theorem array0 (c : Dev nD) :
    (dat0 V c).arrAt 3 cfg0.N = scaledRows (V c main_arg0) (V c main_arg2) (V c main_v15) :=
  (dat0 V c).arrAt_eq_of_cover 3 _ (fun t _ => flushed0 V c t) cover0

/-! ## The second launch -/

/-- The printed index maps over the grid: the row windows at block t, the bias row at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of aggregated rows at point t, read at (p, q). -/
theorem blk1_a (c : Dev nD) (t : Fin cfg1.N) (p : Fin 5000) (q : Fin 128) :
    iblk1 V c 0 t (ix2 p q) = V c main_v26 (ix2 (rowAt t.val t.isLt p) q) := by
  obtain ⟨e00, e01, -⟩ := idx1 t
  show V c main_v26 (((cfg1.win 0).blk t).view.emb (ix2 p q)) = _
  refine congrArg (V c main_v26) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The block of the factor column at point t, read at (p, 0). -/
theorem blk1_f (c : Dev nD) (t : Fin cfg1.N) (p : Fin 5000) :
    iblk1 V c 1 t (ix2 p (0 : Fin 1)) = V c main_v15 (ix2 (rowAt t.val t.isLt p) (0 : Fin 1)) := by
  obtain ⟨-, -, e10, e11, -⟩ := idx1 t
  show V c main_v15 (((cfg1.win 1).blk t).view.emb (ix2 p (0 : Fin 1))) = _
  refine congrArg (V c main_v15) ?_
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- The block of the bias row at any point is the bias row. -/
theorem blk1_b (c : Dev nD) (t : Fin cfg1.N) (q : Fin 128) :
    iblk1 V c 2 t (ix2 (0 : Fin 1) q) = V c main_v27 (ix2 (0 : Fin 1) q) := by
  obtain ⟨-, -, -, -, e20, e21, -⟩ := idx1 t
  show V c main_v27 (((cfg1.win 2).blk t).view.emb (ix2 (0 : Fin 1) q)) = _
  refine congrArg (V c main_v27) ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Entry (p, q) of the output's block at point t is entry (5000 · t + p, q) of the array. -/
theorem emb1_out (t : Fin cfg1.N) (p : Fin 5000) (q : Fin 128) :
    ((cfg1.win 3).blk t).view.emb (ix2 p q) = ix2 (rowAt t.val t.isLt p) q := by
  obtain ⟨-, -, -, -, -, -, e30, e31⟩ := idx1 t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point t writes back is block t of the normalized output of the arrays as the launch finds them. -/
theorem flushed1 (c : Dev nD) (t : Fin cfg1.N) :
    (dat1 V c).flushed 3 t
      = ((cfg1.win 3).blk t).view.read (Elt Ideal) (normalizedOut (V c main_v26) (V c main_v15) (V c main_v27)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (Payloads.postscale_apply (iblk1 V c 0 t) (iblk1 V c 1 t) (iblk1 V c 2 t) p q).trans ?_
  show _ = normalizedOut (V c main_v26) (V c main_v15) (V c main_v27) (((cfg1.win 3).blk t).view.emb (ix2 p q))
  rw [emb1_out t p q, blk1_a V c t p q, blk1_f V c t p, blk1_b V c t q]
  rfl

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Row r lies in the block of point r / 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 5000 < 20 := by omega
  obtain ⟨-, -, -, -, -, -, e30, e31⟩ := idx1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e31]; omega

/-- THE SECOND LAUNCH'S OUTPUT ARRAY: the normalized output of the arrays the launch is entered from. -/
theorem array1 (c : Dev nD) :
    (dat1 V c).arrAt 3 cfg1.N = normalizedOut (V c main_v26) (V c main_v15) (V c main_v27) :=
  (dat1 V c).arrAt_eq_of_cover 3 _ (fun t _ => flushed1 V c t) cover1

end Cert.KernelIdeal.Regions

end
-- ==== Proof.KernelRun.lean ====
/-
  The kernel program's run with its result buffer named.  The program is six segments — three stretches of host
  operations, the first grid launch, one more stretch, the second grid launch — and the launch theorem for such a chain
  ends with every unscoped buffer of the core at the last boundary's contents (`Gen.W6`).  The frame reads only the four
  argument buffers off that final state; here the result buffer is read off it as well.
-/
import proofs.«154220_j82824149336364_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the last
    boundary's contents and the argument buffers as launched. -/
theorem run_named : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.KernelFold.lean ====
/-
  The kernel program's result buffer at the end of the run, as one term of the four argument arrays.

  The buffer contents at the segment boundaries are a fold from the launch memory: three stretches of host operations
  (the edge lists with the self loops appended, the in-degrees by a scatter-add of ones, the normalizing factors
  where(deg > 0, rsqrt(deg), 0) as a column), the first grid launch (rows of x · W, each scaled by its factor), one more
  stretch (the source rows gathered and scatter-added at the destinations; the bias as a row), the second grid launch (each
  aggregated row scaled by its factor, plus bias, clamped at zero).  Read back through the fold, the result is
      normalizedOut (segment-sum over destinations of the gathered scaled rows) factors bias.
  The host chain that both programs share — the index vectors, the degrees, the factors — is carried as named functions of
  the edge array and never opened here.
-/
import proofs.«154220_j82824149336364_2_alg».proof.Proof.Gen.KernelIdeal.Frame
import proofs.«154220_j82824149336364_2_alg».proof.Proof.KernelRegions
import proofs.«154220_j82824149336364_2_alg».proof.Proof.KernelRun
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Regions

/-! ## The shared host chain, named -/

/-- The source of every edge, the self loops appended. -/
def srcIdx (ei : IVec S2x1600000 32) : IVec S1700000 32 :=
  concatenate S1700000 0 [⟨S1600000, shapeCast S1600000 (extractStridedSlice S1x1600000 ![0, 0] ei slices_S2x1600000_S1x1600000_0_0)
    shapeCasts_S1x1600000_S1600000⟩, ⟨S100000, iotaInDim S100000 32 0⟩] concatenates_S1600000_S100000_S1700000_d0

/-- The destination of every edge, the self loops appended. -/
def dstIdx (ei : IVec S2x1600000 32) : IVec S1700000 32 :=
  concatenate S1700000 0 [⟨S1600000, shapeCast S1600000 (extractStridedSlice S1x1600000 ![1, 0] ei slices_S2x1600000_S1x1600000_1_0)
    shapeCasts_S1x1600000_S1600000⟩, ⟨S100000, iotaInDim S100000 32 0⟩] concatenates_S1600000_S100000_S1700000_d0

/-- An index vector as the column of start indices a scatter or a gather takes. -/
def asColumn (v : IVec S1700000 32) : IVec S1700000x1 32 :=
  broadcastInDim S1700000x1 ![0] bcast_S1700000_S1700000x1_0 v

/-- The in-degree of every node: ones scatter-added at the destinations. -/
def degree (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32)) (asColumn (dstIdx ei))
    (broadcastInDim S1700000 ![] bcast_S_S1700000 (constant (F := Ideal) S_ .f32 0x3F800000#32))

/-- The normalizing factor of every node: where(deg > 0, rsqrt(deg), 0). -/
def invDeg (ei : IVec S2x1600000 32) : FVec Ideal S100000 .f32 :=
  select (cmpf (F := Ideal) .ogt (degree ei) (broadcastInDim S100000 ![] bcast_S_S100000 (constant (F := Ideal) S_ .f32 0x00000000#32)))
    (Host.rsqrt (F := Ideal) (degree ei))
    (broadcastInDim S100000 ![] bcast_S_S100000 (id (constant (F := Ideal) S_ .f32 0x00000000#32)))

/-- jnp's indexing of an index vector: a negative index counts from the end. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The kernel program's result as a term of its four arguments. -/
def kernelOut (x : FVec Ideal S100000x128 .f32) (ei : IVec S2x1600000 32)
    (wt : FVec Ideal S128x128 .f32) (b : FVec Ideal S128 .f32) :
    FVec Ideal S100000x128 .f32 :=
  normalizedOut
    (Host.scatterAdd (F := Ideal) scatter_S100000x128_S1700000x1_S1700000x128_1_0_0_1
      (broadcastInDim S100000x128 ![] bcast_S_S100000x128 (constant (F := Ideal) S_ .f32 0x00000000#32)) (asColumn (dstIdx ei))
      (Host.gather gather_S100000x128_S1700000x1_S1700000x128_1_0_n_n_0_1_1128
        (scaledRows x wt (shapeCast S100000x1 (invDeg ei) shapeCasts_S100000_S100000x1)) (asColumn (wrapIdx (srcIdx ei)))))
    (shapeCast S100000x1 (invDeg ei) shapeCasts_S100000_S100000x1)
    (shapeCast S1x128 b shapeCasts_S128_S1x128)

variable (m : (ℓ : Loc nD τ sig) → Buf (Elt Ideal) ℓ) (ρ : Dev nD → PrngReg)

/-! ## The first launch's entry contents (after the three stretches before it) -/

/-- The degrees, after the first stretch. -/
theorem W1_deg (c : Dev nD) : W1 m ρ c (Proc.devRef .tc main_v10) = degree (m ((c : Thread nD τ).loc main_arg1)) := by
  show StableHlo.after hostOps0 (W0 m ρ c) (Proc.devRef .tc main_v10) = _
  dsimp only [hostOps0]
  after_results
  rfl

/-- The first stretch's comparison, inverse square root and zero, over whatever the degrees' buffer holds. -/
theorem W1_cmp (c : Dev nD) : W1 m ρ c (Proc.devRef .tc main_v12)
    = cmpf (F := Ideal) .ogt (W1 m ρ c (Proc.devRef .tc main_v10))
        (broadcastInDim S100000 ![] bcast_S_S100000 (constant (F := Ideal) S_ .f32 0x00000000#32)) := by
  show StableHlo.after hostOps0 (W0 m ρ c) (Proc.devRef .tc main_v12) = cmpf (F := Ideal) .ogt (StableHlo.after hostOps0 (W0 m ρ c) (Proc.devRef .tc main_v10)) _
  dsimp only [hostOps0]
  after_results

theorem W1_rsq (c : Dev nD) : W1 m ρ c (Proc.devRef .tc main_v13)
    = Host.rsqrt (F := Ideal) (φ := .f32) (W1 m ρ c (Proc.devRef .tc main_v10)) := by
  show StableHlo.after hostOps0 (W0 m ρ c) (Proc.devRef .tc main_v13) = Host.rsqrt (F := Ideal) (φ := .f32) (StableHlo.after hostOps0 (W0 m ρ c) (Proc.devRef .tc main_v10))
  dsimp only [hostOps0]
  after_results

theorem W1_zero (c : Dev nD) : W1 m ρ c (Proc.devRef .tc main_cst_2) = constant (F := Ideal) S_ .f32 0x00000000#32 := by
  show StableHlo.after hostOps0 (W0 m ρ c) (Proc.devRef .tc main_cst_2) = _
  dsimp only [hostOps0]
  after_results

/-- The select of the where-call, over whatever its operands' buffers hold. -/
theorem after_where (W : Valuation τ sig (Elt Ideal)) : StableHlo.after hostOps0_1 W (Proc.devRef .tc main_v14)
    = select (W (Proc.devRef .tc main_v12)) (W (Proc.devRef .tc main_v13))
        (broadcastInDim S100000 ![] bcast_S_S100000 (id (W (Proc.devRef .tc main_cst_2)))) := by
  dsimp only [hostOps0_1]
  after_results
  rfl

/-- The factors as a column, over whatever the factors' buffer holds. -/
theorem after_column (W : Valuation τ sig (Elt Ideal)) : StableHlo.after hostOps0_2 W (Proc.devRef .tc main_v15)
    = shapeCast S100000x1 (W (Proc.devRef .tc main_v14)) shapeCasts_S100000_S100000x1 := by
  dsimp only [hostOps0_2]
  after_results
  rfl

theorem W3_invDeg (c : Dev nD) : W3 m ρ c (Proc.devRef .tc main_v15)
    = shapeCast S100000x1 (invDeg (m ((c : Thread nD τ).loc main_arg1))) shapeCasts_S100000_S100000x1 := by
  show StableHlo.after hostOps0_2 (W2 m ρ c) (Proc.devRef .tc main_v15) = _
  rw [after_column]
  show shapeCast S100000x1 (StableHlo.after hostOps0_1 (W1 m ρ c) (Proc.devRef .tc main_v14)) _ = _
  rw [after_where, W1_cmp, W1_rsq, W1_zero, W1_deg]
  rfl

theorem W3_src (c : Dev nD) : W3 m ρ c (Proc.devRef .tc main_v3) = srcIdx (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

theorem W3_dst (c : Dev nD) : W3 m ρ c (Proc.devRef .tc main_v6) = dstIdx (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

/-! ## After the first launch -/

/-- The first launch leaves the scaled rows of x · W in its output array. -/
theorem W4_rows (c : Dev nD) : W4 m ρ c (Proc.devRef .tc main_v16)
    = scaledRows (m ((c : Thread nD τ).loc main_arg0)) (m ((c : Thread nD τ).loc main_arg2))
        (shapeCast S100000x1 (invDeg (m ((c : Thread nD τ).loc main_arg1))) shapeCasts_S100000_S100000x1) := by
  refine (W4_arr m ρ c 3).trans ?_
  refine (Regions.array0 (V3 m ρ) c).trans ?_
  show scaledRows (W3 m ρ c (Proc.devRef .tc main_arg0)) (W3 m ρ c (Proc.devRef .tc main_arg2)) (W3 m ρ c (Proc.devRef .tc main_v15)) = _
  rw [W3_arg0, W3_arg2, W3_invDeg]

/-- It writes no other buffer: the index vectors, the bias and the factor column are as it found them. -/
theorem W4_src (c : Dev nD) : W4 m ρ c (Proc.devRef .tc main_v3) = srcIdx (m ((c : Thread nD τ).loc main_arg1)) :=
  (W4_of_ne m ρ c main_v3 (by decide)).trans (W3_src m ρ c)
theorem W4_dst (c : Dev nD) : W4 m ρ c (Proc.devRef .tc main_v6) = dstIdx (m ((c : Thread nD τ).loc main_arg1)) :=
  (W4_of_ne m ρ c main_v6 (by decide)).trans (W3_dst m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_col (c : Dev nD) : W4 m ρ c (Proc.devRef .tc main_v15)
    = shapeCast S100000x1 (invDeg (m ((c : Thread nD τ).loc main_arg1))) shapeCasts_S100000_S100000x1 :=
  (W4_arr m ρ c 2).trans (((dat0 (V3 m ρ) c).arrAt_in 2 rfl _).trans ((A_eq0 (V3 m ρ) c 2).trans (W3_invDeg m ρ c)))

/-! ## The stretch between the launches, over whatever the buffers it reads hold -/

/-- The gathered source rows, scatter-added at the destinations. -/
theorem after_aggregate (W : Valuation τ sig (Elt Ideal)) : StableHlo.after hostOps1 W (Proc.devRef .tc main_v26)
    = Host.scatterAdd (F := Ideal) scatter_S100000x128_S1700000x1_S1700000x128_1_0_0_1
        (broadcastInDim S100000x128 ![] bcast_S_S100000x128 (constant (F := Ideal) S_ .f32 0x00000000#32))
        (asColumn (W (Proc.devRef .tc main_v6)))
        (Host.gather gather_S100000x128_S1700000x1_S1700000x128_1_0_n_n_0_1_1128 (W (Proc.devRef .tc main_v16))
          (asColumn (wrapIdx (W (Proc.devRef .tc main_v3))))) := by
  dsimp only [hostOps1]
  after_results
  rfl

theorem after_keeps_column (W : Valuation τ sig (Elt Ideal)) :
    StableHlo.after hostOps1 W (Proc.devRef .tc main_v15) = W (Proc.devRef .tc main_v15) := by
  dsimp only [hostOps1]
  after_results

theorem after_bias_row (W : Valuation τ sig (Elt Ideal)) : StableHlo.after hostOps1 W (Proc.devRef .tc main_v27)
    = shapeCast S1x128 (W (Proc.devRef .tc main_arg3)) shapeCasts_S128_S1x128 := by
  dsimp only [hostOps1]
  after_results
  rfl

/-! ## The result -/

/-- THE RESULT BUFFER at the end of the run, as a term of the four arguments. -/
theorem result (c : Dev nD) : W6 m ρ c (Proc.devRef .tc main_v28)
    = kernelOut (m ((c : Thread nD τ).loc main_arg0)) (m ((c : Thread nD τ).loc main_arg1))
        (m ((c : Thread nD τ).loc main_arg2)) (m ((c : Thread nD τ).loc main_arg3)) := by
  refine (W6_arr m ρ c 3).trans ?_
  refine (Regions.array1 (V5 m ρ) c).trans ?_
  show normalizedOut (StableHlo.after hostOps1 (W4 m ρ c) (Proc.devRef .tc main_v26))
      (StableHlo.after hostOps1 (W4 m ρ c) (Proc.devRef .tc main_v15))
      (StableHlo.after hostOps1 (W4 m ρ c) (Proc.devRef .tc main_v27)) = _
  rw [after_aggregate, after_keeps_column, after_bias_row, W4_dst, W4_rows, W4_src, W4_col, W4_arg3]
  rfl

/-- The kernel program's run: every weakly fair execution terminates, nothing faulting, with the result buffer at
    `kernelOut` of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v28)
        = kernelOut (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (result m ρ c), (h c).2⟩) (Cert.KernelIdeal.Run.run_named m ρ)

end Cert.KernelIdeal.Fold

end
-- ==== Proof.GcnLaw.lean ====
/-
  The two facts about extended reals that join the two arrangements of a normalized graph convolution.

  A node's normalizing factor is  where(deg > 0, rsqrt(deg), 0).  Whatever extended real the degree is, this factor is a
  nonnegative real number: a positive real has a positive real inverse square root, the inverse square root of +∞ is 0,
  and every other case selects 0.  Multiplication by a nonnegative real number distributes over every sum of extended
  reals (a sum of +∞ and −∞ is −∞ before and after scaling), so scaling an aggregated row once, after the sum over its
  incoming edges, equals scaling every edge's message before the sum.
-/
import Idealize.ShloMosaic.PureOps.Ideal
import Mathlib.Data.EReal.Operations

noncomputable section

namespace Cert.GcnLaw

open Idealize.ShloMosaic

/-- Scaling a finite sum of extended reals by a nonnegative real number scales every term. -/
theorem sum_mul_of_nonneg_of_ne_top {ι : Type*} (s : Finset ι) (f : ι → EReal) {d : EReal} (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- A node's normalizing factor from its degree: the inverse square root where the degree is positive, 0 elsewhere. -/
def invSqrtPos (x : EReal) : EReal := Scalar.select (Ideal.cmp .ogt x 0) (Ideal.rsqrt x) 0

theorem invSqrtPos_of_pos {x : EReal} (h : 0 < x) : invSqrtPos x = Ideal.rsqrt x := by
  unfold invSqrtPos Ideal.cmp
  simp only [h, decide_true]
  exact if_pos rfl

theorem invSqrtPos_of_not_pos {x : EReal} (h : ¬ 0 < x) : invSqrtPos x = 0 := by
  unfold invSqrtPos Ideal.cmp
  simp only [h, decide_false]
  exact if_neg (by decide)

/-- The factor is nonnegative … -/
theorem invSqrtPos_nonneg (x : EReal) : 0 ≤ invSqrtPos x := by
  by_cases h : 0 < x
  · rw [invSqrtPos_of_pos h]
    induction x using EReal.rec with
    | bot => exact absurd h (by simp)
    | top => simp
    | coe r =>
      have hr : 0 < r := by exact_mod_cast h
      rw [Ideal.rsqrt_coe, if_neg (not_lt.mpr hr.le), if_neg hr.ne']
      exact_mod_cast inv_nonneg.mpr (Real.sqrt_nonneg r)
  · rw [invSqrtPos_of_not_pos h]

/-- … and never +∞. -/
theorem invSqrtPos_ne_top (x : EReal) : invSqrtPos x ≠ ⊤ := by
  by_cases h : 0 < x
  · rw [invSqrtPos_of_pos h]
    induction x using EReal.rec with
    | bot => exact absurd h (by simp)
    | top => simp
    | coe r =>
      have hr : 0 < r := by exact_mod_cast h
      rw [Ideal.rsqrt_coe, if_neg (not_lt.mpr hr.le), if_neg hr.ne']
      exact EReal.coe_ne_top _
  · rw [invSqrtPos_of_not_pos h]; exact EReal.zero_ne_top

end Cert.GcnLaw

end
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.Bridge.lean ====
/-
  The kernel program's result and the reference's are one function of the arguments, entry by entry, on the extended reals.

  With E(r) the edges whose destination word, read signed, is r (a scatter drops every other edge), s(e) the source row
  of edge e (negative indices counted from the end, then clamped, as a gather reads them), f the normalizing factors and
  a(e, q) = ∑ k, x(s(e), k) · W(k, q):
      kernel      max ((0 + ∑ e ∈ E(r), a(e, q) · f(s(e))) · f(r) + b(q)) 0
      reference   max ((0 + ∑ e ∈ E(r), a(e, q) · (f(s(e)) · f(d(e)))) + b(q)) 0      d(e) the gathered destination row.
  For e ∈ E(r) the destination word is r itself, nonnegative and in range, so wrapping and clamping leave it: d(e) = r.
  Multiplication of extended reals is associative, and f(r) is a nonnegative real number (GcnLaw), so it distributes
  over the sum: the two are equal, whatever the inputs hold.
-/
import proofs.«154220_j82824149336364_2_alg».proof.Proof.KernelFold
import proofs.«154220_j82824149336364_2_alg».proof.Proof.RefRunPatched
import proofs.«154220_j82824149336364_2_alg».proof.Proof.GcnLaw
import proofs.«154220_j82824149336364_2_alg».proof.Proof.LibRowScatterGather
import proofs.«154220_j82824149336364_2_alg».proof.Proof.LibUnitColumns
import proofs.«154220_j82824149336364_2_alg».proof.Proof.LibPlainDot
import proofs.«154220_j82824149336364_2_alg».proof.Proof.LibUnitAxes

set_option maxRecDepth 16384

noncomputable section

namespace Cert.Bridge

open Idealize.ShloMosaic Idealize.ShloMosaic.ValueIdx
open Cert.KernelIdeal Cert.KernelIdeal.Gen Cert.KernelIdeal.Fold Cert.KernelIdeal.Regions

/-! ## The shared chain at an index -/

/-- An index vector as a column: entry (e, 0) is the vector's entry e. -/
theorem asColumn_apply (v : IVec S1700000 32) (e : Fin 1700000) : asColumn v (ix2 e (0 : Fin 1)) = v (ix1 e) :=
  Cert.LibUnitColumns.broadcastInDim_a_a1_apply v bcast_S1700000_S1700000x1_0 e 0

/-- where(d > 0, rsqrt(d), 0) at a node, for any vector of degrees, is the normalizing factor of that node's degree. -/
theorem where_rsqrt_apply (dg : FVec Ideal S100000 .f32) (r : Fin 100000) :
    select (cmpf (F := Ideal) .ogt dg (broadcastInDim S100000 ![] bcast_S_S100000 (constant (F := Ideal) S_ .f32 0x00000000#32)))
        (Host.rsqrt (F := Ideal) dg)
        (broadcastInDim S100000 ![] bcast_S_S100000 (id (constant (F := Ideal) S_ .f32 0x00000000#32))) (ix1 r)
      = Cert.GcnLaw.invSqrtPos (dg (ix1 r)) := by
  rw [select_apply, cmpf_apply, Cert.LibUnitAxes.broadcastInDim_scalar_apply, Cert.LibUnitAxes.broadcastInDim_scalar_apply]
  show Scalar.select (Ideal.cmp .ogt (dg (ix1 r)) (Ideal.ofBits .f32 0x00000000#32)) (Ideal.rsqrt (dg (ix1 r)))
    (Ideal.ofBits .f32 0x00000000#32) = _
  rw [Ideal.ofBits_zero_f32]
  rfl

/-- A node's factor is the normalizing factor of its degree. -/
theorem invDeg_apply (ei : IVec S2x1600000 32) (r : Fin 100000) :
    invDeg ei (ix1 r) = Cert.GcnLaw.invSqrtPos (degree ei (ix1 r)) := by
  unfold invDeg
  exact where_rsqrt_apply (degree ei) r

/-- Wrapping leaves a nonnegative index as it is. -/
theorem wrapIdx_of_nonneg (v : IVec S1700000 32) (e : Fin 1700000) (h : 0 ≤ (v (ix1 e)).toInt) :
    wrapIdx v (ix1 e) = v (ix1 e) := by
  unfold wrapIdx
  rw [select_apply]
  have hc : cmpi .slt v (broadcastInDim S1700000 ![] bcast_S_S1700000 (constantI S_ 32 0#32)) (ix1 e) = 0#1 := by
    show IntOp.cmpi .slt (v (ix1 e)) (broadcastInDim S1700000 ![] bcast_S_S1700000 (constantI S_ 32 0#32) (ix1 e)) = 0#1
    rw [Cert.LibUnitAxes.broadcastInDim_scalar_apply, constantI_apply]
    show BitVec.ofBool ((v (ix1 e)).slt 0#32) = 0#1
    have hs : (v (ix1 e)).slt 0#32 = false := by
      unfold BitVec.slt
      have h0 : (0#32 : BitVec 32).toInt = 0 := by decide
      rw [h0]
      exact decide_eq_false (not_lt.mpr h)
    rw [hs]; rfl
  rw [hc, select_zero]

/-- The row a gather reads for an index word: the word read signed, clamped into the array. -/
def clampRow (w : BitVec 32) : Fin 100000 := ⟨min w.toInt.toNat (100000 - 1), by omega⟩

/-- An index word that reads, signed, as the row r is gathered at r, wrapped or not. -/
theorem clampRow_wrap_of_eq (v : IVec S1700000 32) (e : Fin 1700000) (r : Fin 100000)
    (h : (v (ix1 e)).toInt = (r.val : Int)) : clampRow (wrapIdx v (ix1 e)) = r := by
  rw [wrapIdx_of_nonneg v e (by rw [h]; exact Int.natCast_nonneg _)]
  exact Fin.ext (LibRowScatterGather.clamp_eq_of_inRange _ r h)

/-! ## The printed scatter and gather, by the general laws -/

/-- The segment sum by rows at an entry. -/
theorem segment_sum_apply (x0 : FVec Ideal S100000x128 .f32) (idx : IVec S1700000x1 32) (upd : FVec Ideal S1700000x128 .f32)
    (r : Fin 100000) (q : Fin 128) :
    Host.scatterAdd (F := Ideal) scatter_S100000x128_S1700000x1_S1700000x128_1_0_0_1 x0 idx upd (ix2 r q)
      = x0 (ix2 r q) + ∑ e ∈ Finset.univ.filter (fun e : Fin 1700000 => (idx (ix2 e 0)).toInt = (r.val : Int)), upd (ix2 e q) :=
  LibRowScatterGather.hostScatterAdd_seg_apply scatter_S100000x128_S1700000x1_S1700000x128_1_0_0_1_wf x0 idx upd r q

/-- The gather of rows at an entry. -/
theorem gather_rows_apply (X : FVec Ideal S100000x128 .f32) (idx : IVec S1700000x1 32) (e : Fin 1700000) (q : Fin 128) :
    Host.gather gather_S100000x128_S1700000x1_S1700000x128_1_0_n_n_0_1_1128 X idx (ix2 e q)
      = X (ix2 (clampRow (idx (ix2 e 0))) q) :=
  LibRowScatterGather.gather_rows_apply (by norm_num) gather_S100000x128_S1700000x1_S1700000x128_1_0_n_n_0_1_1128_wf X idx e q

/-- The zero array at an entry. -/
theorem zeros_apply (j : S100000x128.Idx) :
    broadcastInDim S100000x128 ![] bcast_S_S100000x128 (constant (F := Ideal) S_ .f32 0x00000000#32) j = 0 := by
  rw [Cert.LibUnitAxes.broadcastInDim_scalar_apply, constant_apply, Ideal.ofBits_zero_f32]

/-! ## The kernel program's result at an entry -/

theorem normalizedOut_apply (a : FVec Ideal S100000x128 .f32) (f : FVec Ideal S100000x1 .f32) (b : FVec Ideal S1x128 .f32)
    (r : Fin 100000) (q : Fin 128) :
    normalizedOut a f b (ix2 r q) = max (a (ix2 r q) * f (ix2 r (0 : Fin 1)) + b (ix2 (0 : Fin 1) q)) 0 := rfl

theorem scaledRows_apply (x : FVec Ideal S100000x128 .f32) (wt : FVec Ideal S128x128 .f32) (f : FVec Ideal S100000x1 .f32)
    (s : Fin 100000) (q : Fin 128) :
    scaledRows x wt f (ix2 s q) = (∑ k : Fin 128, x (ix2 s k) * wt (ix2 k q)) * f (ix2 s (0 : Fin 1)) := rfl

/-- One edge's message in the kernel's arrangement: row s of x · W at column q, scaled by the source's factor. -/
def msgK (x : FVec Ideal S100000x128 .f32) (ei : IVec S2x1600000 32) (wt : FVec Ideal S128x128 .f32) (q : Fin 128)
    (e : Fin 1700000) : EReal :=
  (∑ k : Fin 128, x (ix2 (clampRow (wrapIdx (srcIdx ei) (ix1 e))) k) * wt (ix2 k q))
    * invDeg ei (ix1 (clampRow (wrapIdx (srcIdx ei) (ix1 e))))

theorem kernelOut_apply (x : FVec Ideal S100000x128 .f32) (ei : IVec S2x1600000 32) (wt : FVec Ideal S128x128 .f32)
    (b : FVec Ideal S128 .f32) (r : Fin 100000) (q : Fin 128) :
    kernelOut x ei wt b (ix2 r q)
      = max ((0 + ∑ e ∈ Finset.univ.filter (fun e : Fin 1700000 => (dstIdx ei (ix1 e)).toInt = (r.val : Int)), msgK x ei wt q e)
          * invDeg ei (ix1 r) + b (ix1 q)) 0 := by
  unfold kernelOut
  rw [normalizedOut_apply, segment_sum_apply, zeros_apply, Cert.LibUnitColumns.shapeCast_a_a1_apply, shapeCast_a_1a_apply]
  simp only [asColumn_apply, gather_rows_apply, scaledRows_apply, Cert.LibUnitColumns.shapeCast_a_a1_apply, msgK]

/-! ## The reference's result, over the same named chain -/

/-- The reference's product's dimension numbers contract the left operand's columns with the right operand's rows. -/
theorem rdot_rank : (Cert.ReferenceIdeal.dot_S100000x128_S128x128_S100000x128_1_0_0_1_n_n).contr.rank = 1 := rfl
theorem rdot_size : (Cert.ReferenceIdeal.dot_S100000x128_S128x128_S100000x128_1_0_0_1_n_n).contr.size ⟨0, by rw [rdot_rank]; omega⟩ = 128 := rfl
theorem rdot_l0 : ∀ (j : S100000x128.Idx) (k : (Cert.ReferenceIdeal.dot_S100000x128_S128x128_S100000x128_1_0_0_1_n_n).contr.Idx),
    ((Cert.ReferenceIdeal.dot_S100000x128_S128x128_S100000x128_1_0_0_1_n_n).lhsIdx j k 0).val = (j 0).val := fun _ _ => rfl
theorem rdot_r1 : ∀ (j : S100000x128.Idx) (k : (Cert.ReferenceIdeal.dot_S100000x128_S128x128_S100000x128_1_0_0_1_n_n).contr.Idx),
    ((Cert.ReferenceIdeal.dot_S100000x128_S128x128_S100000x128_1_0_0_1_n_n).rhsIdx j k 1).val = (j 1).val := fun _ _ => rfl

/-- x · W on the host at an entry. -/
theorem dot_rows_apply (x : FVec Ideal S100000x128 .f32) (wt : FVec Ideal S128x128 .f32) (s : Fin 100000) (q : Fin 128) :
    Host.dotGeneral (F := Ideal) Cert.ReferenceIdeal.dot_S100000x128_S128x128_S100000x128_1_0_0_1_n_n none x wt (ix2 s q)
      = ∑ k : Fin 128, x (ix2 s k) * wt (ix2 k q) :=
  Cert.LibPlainDot.dotGeneral_apply (M := 100000) (K := 128) (N := 128) Cert.ReferenceIdeal.dot_S100000x128_S128x128_S100000x128_1_0_0_1_n_n
    rdot_rank rdot_size rfl rfl rdot_l0 rdot_r1 none .single x wt s q

/-- The gather from a vector at an entry. -/
theorem gather_vec_apply (X : FVec Ideal S100000 .f32) (idx : IVec S1700000x1 32) (e : Fin 1700000) :
    Host.gather Cert.ReferenceIdeal.gather_S100000_S1700000x1_S1700000_n_0_n_n_0_1_1 X idx (ix1 e)
      = X (ix1 (clampRow (idx (ix2 e 0)))) :=
  LibRowScatterGather.gather_vec_apply (by norm_num)
    Cert.ReferenceIdeal.Gen.gather_S100000_S1700000x1_S1700000_n_0_n_n_0_1_1_wf X idx e

/-- The reference's result as a term of its four arguments, over the same index vectors and factors. -/
def refOut (x : FVec Ideal S100000x128 .f32) (ei : IVec S2x1600000 32) (wt : FVec Ideal S128x128 .f32) (b : FVec Ideal S128 .f32) :
    FVec Ideal S100000x128 .f32 :=
  maximumf
    (addf
      (Host.scatterAdd (F := Ideal) scatter_S100000x128_S1700000x1_S1700000x128_1_0_0_1
        (broadcastInDim S100000x128 ![] bcast_S_S100000x128 (constant (F := Ideal) S_ .f32 0x00000000#32)) (asColumn (dstIdx ei))
        (mulf
          (Host.gather gather_S100000x128_S1700000x1_S1700000x128_1_0_n_n_0_1_1128
            (Host.dotGeneral (F := Ideal) Cert.ReferenceIdeal.dot_S100000x128_S128x128_S100000x128_1_0_0_1_n_n none x wt)
            (asColumn (wrapIdx (srcIdx ei))))
          (broadcastInDim S1700000x128 ![0, 1] Cert.ReferenceIdeal.Gen.bcast_S1700000x1_S1700000x128_0_1
            (broadcastInDim S1700000x1 ![0] bcast_S1700000_S1700000x1_0
              (mulf
                (Host.gather Cert.ReferenceIdeal.gather_S100000_S1700000x1_S1700000_n_0_n_n_0_1_1 (invDeg ei)
                  (asColumn (wrapIdx (srcIdx ei))))
                (Host.gather Cert.ReferenceIdeal.gather_S100000_S1700000x1_S1700000_n_0_n_n_0_1_1 (invDeg ei)
                  (asColumn (wrapIdx (dstIdx ei)))))))))
      (broadcastInDim S100000x128 ![0, 1] Cert.ReferenceIdeal.Gen.bcast_S1x128_S100000x128_0_1
        (broadcastInDim S1x128 ![1] Cert.ReferenceIdeal.Gen.bcast_S128_S1x128_1 b)))
    (broadcastInDim S100000x128 ![] bcast_S_S100000x128 (constant (F := Ideal) S_ .f32 0x00000000#32))

/-- One edge's message in the reference's arrangement: row s of x · W at column q, scaled by the edge's norm. -/
def msgR (x : FVec Ideal S100000x128 .f32) (ei : IVec S2x1600000 32) (wt : FVec Ideal S128x128 .f32) (q : Fin 128)
    (e : Fin 1700000) : EReal :=
  (∑ k : Fin 128, x (ix2 (clampRow (wrapIdx (srcIdx ei) (ix1 e))) k) * wt (ix2 k q))
    * (invDeg ei (ix1 (clampRow (wrapIdx (srcIdx ei) (ix1 e)))) * invDeg ei (ix1 (clampRow (wrapIdx (dstIdx ei) (ix1 e)))))

theorem refOut_apply (x : FVec Ideal S100000x128 .f32) (ei : IVec S2x1600000 32) (wt : FVec Ideal S128x128 .f32)
    (b : FVec Ideal S128 .f32) (r : Fin 100000) (q : Fin 128) :
    refOut x ei wt b (ix2 r q)
      = max ((0 + ∑ e ∈ Finset.univ.filter (fun e : Fin 1700000 => (dstIdx ei (ix1 e)).toInt = (r.val : Int)), msgR x ei wt q e)
          + b (ix1 q)) 0 := by
  unfold refOut
  rw [maximumf_apply, addf_apply, segment_sum_apply, zeros_apply, Cert.LibUnitAxes.broadcastInDim_1b_ab_apply,
    Cert.LibUnitColumns.broadcastInDim_b_1b_apply]
  have hfilter : (Finset.univ.filter fun e : Fin 1700000 => (asColumn (dstIdx ei) (ix2 e 0)).toInt = (r.val : Int))
      = Finset.univ.filter fun e : Fin 1700000 => (dstIdx ei (ix1 e)).toInt = (r.val : Int) := by
    simp only [asColumn_apply]
  rw [hfilter]
  refine congrArg (fun t => max (0 + t + b (ix1 q)) 0) ?_
  refine Finset.sum_congr rfl fun e _ => ?_
  rw [mulf_apply, gather_rows_apply, dot_rows_apply, Cert.LibUnitAxes.broadcastInDim_a1_ab_apply,
    Cert.LibUnitColumns.broadcastInDim_a_a1_apply, mulf_apply, gather_vec_apply, gather_vec_apply, asColumn_apply, asColumn_apply]
  rfl

/-! ## The two results are one function -/

/-- THE BRIDGE: the kernel program's result term and the reference's are equal, whatever the arguments hold. -/
theorem kernelOut_eq_refOut (x : FVec Ideal S100000x128 .f32) (ei : IVec S2x1600000 32) (wt : FVec Ideal S128x128 .f32)
    (b : FVec Ideal S128 .f32) : kernelOut x ei wt b = refOut x ei wt b := by
  funext j
  obtain ⟨r, q, rfl⟩ : ∃ (r : Fin 100000) (q : Fin 128), j = ix2 r q := ⟨j 0, j 1, eq_ix2 j⟩
  rw [kernelOut_apply, refOut_apply]
  refine congrArg (fun t => max (t + b (ix1 q)) 0) ?_
  have hnn : 0 ≤ invDeg ei (ix1 r) := by rw [invDeg_apply]; exact Cert.GcnLaw.invSqrtPos_nonneg _
  have hnt : invDeg ei (ix1 r) ≠ ⊤ := by rw [invDeg_apply]; exact Cert.GcnLaw.invSqrtPos_ne_top _
  rw [zero_add, zero_add, Cert.GcnLaw.sum_mul_of_nonneg_of_ne_top _ _ hnn hnt]
  refine Finset.sum_congr rfl fun e he => ?_
  have hd : (dstIdx ei (ix1 e)).toInt = (r.val : Int) := (Finset.mem_filter.mp he).2
  unfold msgK msgR
  rw [clampRow_wrap_of_eq (dstIdx ei) e r hd, mul_assoc]

end Cert.Bridge

end
-- ==== Proof.RefResult.lean ====
/-
  The reference program's result, as its run states it, is `refOut` of the four arguments: the run's composed term and
  `refOut` are the same tree of host operations — the edge lists with the self loops appended, the degrees, the factors
  where(deg > 0, rsqrt(deg), 0), the wrapped gathers, x · W, the per-edge norm, the segment sum, the bias and the
  clamp at zero — the one spelt out, the other over the chain's names.
-/
import proofs.«154220_j82824149336364_2_alg».proof.Proof.Bridge

set_option maxRecDepth 16384

noncomputable section

namespace Cert.Bridge

open Idealize.ShloMosaic Idealize.ShloMosaic.TcCoe Idealize.SL.Sem
open Cert.KernelIdeal.Fold

theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v47 (F := Ideal) m c
      = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) := by
  unfold Cert.ReferenceIdeal.ValueP.res_main_v47 refOut invDeg degree asColumn wrapIdx srcIdx dstIdx
  rfl

end Cert.Bridge

end
-- ==== Proof.lean ====
/-
  A graph-convolution layer with self loops and symmetric normalization, in two arrangements, equal on the extended reals.

  With E(r) the edges into node r (the self loops included; an edge whose destination word is out of range is dropped by
  the scatter in both programs), s(e) the source row an edge's gather reads, deg the in-degrees, f = where(deg > 0,
  rsqrt(deg), 0) the normalizing factors and xw = x · W:
      reference   out(r, q) = max (∑ e ∈ E(r), xw(s(e), q) · (f(s(e)) · f(d(e))) + b(q)) 0
      kernel      out(r, q) = max ((∑ e ∈ E(r), xw(s(e), q) · f(s(e))) · f(r) + b(q)) 0,
  the kernel scaling the rows of x · W by the source factor inside its first grid launch and each aggregated row by the
  destination factor inside its second.  For e ∈ E(r) the gathered destination row d(e) is r; multiplication is
  associative; and f(r) is a nonnegative real number whatever the degree is, so it distributes over the sum of extended
  reals.  No finiteness of the inputs is used.

  The kernel program's run is read off its launch: every unscoped buffer ends at the last boundary's contents, the two
  launches' output arrays are whole-array functions of their input arrays (each output row written by one grid point, from
  the same row of its row inputs), and the host stretches between them are read back to the argument arrays.  The
  reference's run is its list of host operations read back.  The ideal pass rewrote nothing, so the kernel's
  idealization is its own text read on the extended reals.
-/
import proofs.«154220_j82824149336364_2_alg».proof.Defs
import proofs.«154220_j82824149336364_2_alg».proof.Proof.Gen.Kernel
import proofs.«154220_j82824149336364_2_alg».proof.Proof.Gen.Kernel.Skeleton
import proofs.«154220_j82824149336364_2_alg».proof.Proof.Gen.Kernel.Launch
import proofs.«154220_j82824149336364_2_alg».proof.Proof.Gen.Kernel.Points
import proofs.«154220_j82824149336364_2_alg».proof.Proof.Gen.Kernel.Frame
import proofs.«154220_j82824149336364_2_alg».proof.Proof.Gen.KernelIdeal
import proofs.«154220_j82824149336364_2_alg».proof.Proof.Gen.KernelIdeal.Skeleton
import proofs.«154220_j82824149336364_2_alg».proof.Proof.Gen.KernelIdeal.Launch
import proofs.«154220_j82824149336364_2_alg».proof.Proof.Gen.KernelIdeal.Points
import proofs.«154220_j82824149336364_2_alg».proof.Proof.Gen.KernelIdeal.Frame
import proofs.«154220_j82824149336364_2_alg».proof.Proof.Gen.ReferenceIdeal
import proofs.«154220_j82824149336364_2_alg».proof.Proof.Gen.Pre_finite_inputs
import proofs.«154220_j82824149336364_2_alg».proof.Proof.KernelFold
import proofs.«154220_j82824149336364_2_alg».proof.Proof.RefRunPatched
import proofs.«154220_j82824149336364_2_alg».proof.Proof.Bridge
import proofs.«154220_j82824149336364_2_alg».proof.Proof.RefResult
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories that agree on the arguments the two programs end with equal results: the kernel's at `kernelOut` of its
    arguments, the reference's at `refOut` of its own, and the two terms are one function. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.ValueP.run (F := Ideal) m' ρ')
  rw [Cert.Bridge.res_eq, (hagree c).1, (hagree c).2.1, (hagree c).2.2.1, (hagree c).2.2.2]
  exact (Cert.Bridge.kernelOut_eq_refOut _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
